-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S1024x2048 : Shape := ⟨2, ![1024, 2048]⟩
abbrev S1024x64 : Shape := ⟨2, ![1024, 64]⟩
abbrev S64x2048 : Shape := ⟨2, ![64, 2048]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S1024x2048, .f32⟩
  | .local _ .vmem, ⟨1, _⟩ => ⟨S1024x2048, .f32⟩
  | .local _ .vmem, ⟨2, _⟩ => ⟨S64x4096, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 2], ![false, false]⟩

def k0_off1 (i : grid0.Coords) : Fin 2 → Nat :=
  let c0_1 : Index := 0#32
  let arg1 : BitVec 32 := BitVec.ofNat 32 (i 1).val
  let c2048_i32 : BitVec 32 := 2048#32
  let v1 : BitVec 32 := Scalar.muli arg1 c2048_i32
  let v2 : Index := Scalar.indexCast v1
  ![0, v2.toNat]
def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  h_S64x2048 : 0 < S64x2048.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  dot_S1024x2048_S64x2048_S1024x64_1_1_0_0_n_n_wf : DotDims.WF S1024x2048 S64x2048 S1024x64 [1] [1] [0] [0] [] []
  hrank0 : 0 < grid0.rank
  k0_off1_inb : ∀ i : grid0.Coords, ∀ a, (k0_off1 i) a + S64x2048.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x4096.size a
  hwx0_0 : ∀ i : grid0.Coords, EltTy.bits .f32 = 32 ∨ (Rect.block (s := S32768x4096) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.GateLaw.lean ====
/-
  The gating function both programs compute, stated once over the extended reals, with no program in sight.
  For a token (a row `r` of the 32768 × 4096 activations) and an expert `e` (a row of the 64 × 4096 weights) the LOGIT is
  the inner product of the token's features with the expert's weights, plus the expert's bias; the output row is the
  SOFTMAX of the token's 64 logits: each logit less the row's maximum, exponentiated, over the sum of the row's
  exponentials.
  Also here, the only arithmetic by which the two programs' arrangements of that function differ:
    • a sum over the 4096 feature positions is the sum over the first 2048 plus the sum over the last 2048
      (addition of extended reals is commutative and associative; no finiteness is needed);
    • a maximum of a fold's own starting value with the fold is the fold;
  and a fold of `max` / a finite sum depend only on the values folded.
-/
import Idealize.ShloMosaic.PureOps.Ideal.Laws
import Idealize.ShloMosaic.Lib.ValueIdx

noncomputable section

open scoped BigOperators

namespace Cert.Gate

open Idealize.ShloMosaic Idealize.ShloMosaic.ValueIdx

/-- The maximum of a row of 64 values: the fold of `max` from the pattern both programs start it at (that of `-∞`,
    never evaluated here: it is the same word on both sides). -/
def rowMax (L : Fin 64 → EReal) : EReal :=
  (Finset.univ : Finset (Fin 64)).fold max (Ideal.ofBits .f32 0xFF800000#32) L

/-- The softmax of a row of 64 logits at position `e`: `exp (L e - max L) / ∑ e', exp (L e' - max L)`. -/
def softmaxRow (L : Fin 64 → EReal) (e : Fin 64) : EReal :=
  Ideal.div (Ideal.exp (L e - rowMax L)) (∑ e' : Fin 64, Ideal.exp (L e' - rowMax L))

/-- Token `r`'s logit for expert `e`: `∑ k, X[r, k] · W[e, k] + b[e]`. -/
def logit (X : (⟨2, ![32768, 4096]⟩ : Shape).Idx → EReal) (W : (⟨2, ![64, 4096]⟩ : Shape).Idx → EReal)
    (b : (⟨1, ![64]⟩ : Shape).Idx → EReal) (r : Fin 32768) (e : Fin 64) : EReal :=
  (∑ k : Fin 4096, X (ix2 r k) * W (ix2 e k)) + b (ix1 e)

/-- The gating network's output, element by element: entry `(r, e)` is the softmax of token `r`'s logits at `e`. -/
def gate (X : (⟨2, ![32768, 4096]⟩ : Shape).Idx → EReal) (W : (⟨2, ![64, 4096]⟩ : Shape).Idx → EReal)
    (b : (⟨1, ![64]⟩ : Shape).Idx → EReal) : (⟨2, ![32768, 64]⟩ : Shape).Idx → EReal :=
  fun i => softmaxRow (logit X W b (i 0)) (i 1)

/-- A sum over 4096 positions is the sum over the first 2048 plus the sum over the last 2048. -/
theorem sum_halves (f : Fin 4096 → EReal) :
    ∑ k : Fin 4096, f k
      = (∑ k : Fin 2048, f ⟨k.val, by have := k.isLt; omega⟩) + ∑ k : Fin 2048, f ⟨2048 + k.val, by have := k.isLt; omega⟩ :=
  Fin.sum_univ_add (a := 2048) (b := 2048) f

/-- The maximum of a fold's starting value with the fold is the fold: the fold is at least where it started. -/
theorem max_start_fold (a : EReal) (L : Fin 64 → EReal) :
    max a ((Finset.univ : Finset (Fin 64)).fold max a L) = (Finset.univ : Finset (Fin 64)).fold max a L :=
  max_eq_right ((Finset.le_fold_max a).mpr (Or.inl le_rfl))

/-- The softmax of a row depends only on the row's values. -/
theorem softmaxRow_congr {L L' : Fin 64 → EReal} (h : ∀ e, L e = L' e) (e : Fin 64) : softmaxRow L e = softmaxRow L' e := by
  rw [show L = L' from funext h]

end Cert.Gate

end
-- ==== Proof.RefValue.lean ====
/-
  The reference, read at the extended reals, computes the gating function of `GateLaw`, element by element.
  Its stages, in order: the weights transposed and contracted with the activations over the 4096 feature positions
  (a sum of products), the bias added along each row (the LOGITS); each row's maximum, taken once more against the value
  the fold started from (which changes nothing); the logits less their row's maximum, exponentiated; each row's sum of
  those, started from the zero pattern (which adds nothing); the quotient. Every stage is read at an index written by
  its coordinates, so that the row a column entry depends on is visible: entry `(r, e)` depends on row `r` of the
  activations, on every row of the weights and on the whole bias.
-/
import proofs.«146715_g5909874999581_cont_9to1_m_558_23_alg».proof.Proof.Gen.ReferenceIdeal.Read
import proofs.«146715_g5909874999581_cont_9to1_m_558_23_alg».proof.Proof.GateLaw
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.Gate
open Idealize.ShloMosaic Idealize.ShloMosaic.ValueIdx

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The stage after the bias is added holds the logits: at `(r, e)`, the contraction of row `r` of the activations with
    row `e` of the weights (column `e` of their transpose), plus the bias at `e`. -/
theorem logits_apply (r : Fin 32768) (e : Fin 64) :
    val_main_v4 (F := Ideal) x0 x1 x2 (ix2 r e) = logit x0 x1 x2 r e := by
  have el : ∀ k : Fin 4096, lidx_main_v1 (ix2 r e) k = ix2 r k := fun k => funext fun a => Fin.ext (by
    match a with | ⟨0, _⟩ => rfl | ⟨1, _⟩ => rfl)
  have er : ∀ k : Fin 4096, idx_main_v0 (ridx_main_v1 (ix2 r e) k) = ix2 e k := fun k => funext fun a => Fin.ext (by
    match a with | ⟨0, _⟩ => rfl | ⟨1, _⟩ => rfl)
  have eb : idx_main_v2 (idx_main_v3 (ix2 r e)) = ix1 e := funext fun a => Fin.ext (by
    match a with | ⟨0, _⟩ => rfl)
  rw [val_main_v4_apply, val_main_v1_apply, val_main_v3_apply, val_main_v2_apply]
  simp only [val_main_v0_apply, el, er, eb, Ideal.addf_def]
  rfl

/-- The stage that feeds the subtraction holds each row's maximum: the fold of `max` over the row's 64 logits, the
    further maximum with the fold's own start being the fold itself. -/
theorem rowmax_apply (r : Fin 32768) :
    val_main_v7 (F := Ideal) x0 x1 x2 (ix1 r) = rowMax (logit x0 x1 x2 r) := by
  have hred : S32768x64.Reduces [1] S32768 := by decide
  have erow : (val_main_v4 (F := Ideal) x0 x1 x2 ∘ hred.lift (ix1 r)) = logit x0 x1 x2 r := funext fun k => by
    show val_main_v4 (F := Ideal) x0 x1 x2 (hred.lift (ix1 r) k) = _
    rw [show hred.lift (ix1 r) k = ix2 r k from funext fun a => Fin.ext (by
      match a with | ⟨0, _⟩ => rfl | ⟨1, _⟩ => rfl)]
    exact logits_apply x0 x1 x2 r k
  rw [val_main_v7_apply, val_main_v6_apply, val_main_cst_0_apply]
  unfold val_main_v5
  rw [Host.reduce_eq_fold_single FloatOps.maximumf _ _ reducesTo_S32768x64_S32768_d1 hred h_S_ (ix1 r), erow]
  exact max_start_fold _ _

/-- The exponentials: at `(r, e)`, `exp` of the logit less the row's maximum. -/
theorem exps_apply (r : Fin 32768) (e : Fin 64) :
    val_main_v11 (F := Ideal) x0 x1 x2 (ix2 r e) = Ideal.exp (logit x0 x1 x2 r e - rowMax (logit x0 x1 x2 r)) := by
  have em : idx_main_v8 (idx_main_v9 (ix2 r e)) = ix1 r := funext fun a => Fin.ext (by
    match a with | ⟨0, _⟩ => rfl)
  rw [val_main_v11_apply, val_main_v10_apply, val_main_v9_apply, val_main_v8_apply, em, rowmax_apply, logits_apply]
  rfl

/-- The row sums: at `r`, the sum over the 64 experts of the row's exponentials (the sum's start, the zero pattern,
    adds nothing). -/
theorem rowsum_apply (r : Fin 32768) :
    val_main_v12 (F := Ideal) x0 x1 x2 (ix1 r)
      = ∑ e : Fin 64, Ideal.exp (logit x0 x1 x2 r e - rowMax (logit x0 x1 x2 r)) := by
  have ek : ∀ k : Fin 64, idx_main_v12 (ix1 r) k = ix2 r k := fun k => funext fun a => Fin.ext (by
    match a with | ⟨0, _⟩ => rfl | ⟨1, _⟩ => rfl)
  rw [val_main_v12_apply, val_main_cst_1_apply]
  simp only [ek, exps_apply, Ideal.ofBits_def, Ideal.ofBits_zero_f32, zero_add]

/-- The reference's result, as a whole array, is the gating function of its three arguments. -/
theorem result_eq : val_main_v15 (F := Ideal) x0 x1 x2 = gate x0 x1 x2 := by
  funext i
  obtain ⟨r, e, rfl⟩ : ∃ (r : Fin 32768) (e : Fin 64), i = ix2 r e := ⟨i 0, i 1, eq_ix2 i⟩
  have es : idx_main_v13 (idx_main_v14 (ix2 r e)) = ix1 r := funext fun a => Fin.ext (by
    match a with | ⟨0, _⟩ => rfl)
  rw [val_main_v15_apply, val_main_v14_apply, val_main_v13_apply, es, exps_apply, rowsum_apply]
  rfl

end Cert.ReferenceIdeal.RefValue

end
-- ==== Proof.KernelCases.lean ====
/-
  What each of the body's two cases leaves, as values of the blocks it was handed.
  A block of 1024 tokens is visited at two consecutive grid points. At the FIRST (feature half 0) the body stores the
  partial product of the activations' slab with the weights' first 2048 columns into the accumulator it carries to
  the next point, and leaves the output block alone. At the SECOND (feature half 1) it reads that accumulator back,
  adds the partial product over the weights' last 2048 columns and the bias, and stores the row softmax into the
  output block. The weights are resident whole; the slab a point multiplies by is cut out of them at the column
  offset 2048 · (feature half). Each case's stored value is its one covering store's payload, whose loads read whole
  buffers (but for the weights' slab).
-/
import proofs.«146715_g5909874999581_cont_9to1_m_558_23_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The 64 × 2048 slab of the resident weights that the point with coordinates `i` multiplies by: all 64 experts,
    the 2048 columns from `2048 · i₁`. -/
abbrev wslab (i : grid0.Coords) (W : Vec F S64x4096 .f32) : Vec F S64x2048 .f32 :=
  View.ld W (Rect.unit (k0_off1 i) S64x2048.size (k0_off1_inb i))

/-- THE FIRST POINT of a block leaves, in the carried accumulator, the partial product of its activations' slab
    with its weights' slab. -/
theorem first_leaves (c : Dev nD) (i : grid0.Coords) (a2 : Memref sig .tc .vmem S1024x2048 .f32) (h2 : a2.IsWhole)
    (a3 : Memref sig .tc .vmem S64x4096 .f32) (h3 : a3.IsWhole) (a4 : Memref sig .tc .vmem S1x64 .f32) (h4 : a4.IsWhole)
    (a5 : Memref sig .tc .vmem S1024x64 .f32) (h5 : a5.IsWhole) (a6 : Memref sig .tc .vmem S1024x64 .f32) (h6 : a6.IsWhole)
    (hc0 : cond0_0 i) (hc1 : ¬cond0_1 i) (x0 : Vec F S1024x2048 .f32) (x1 : Vec F S64x4096 .f32) (x2 : Vec F S1x64 .f32) :
    sout0_A_0 c i a2 h2 a3 h3 a4 h4 a5 h5 a6 h6 hc0 hc1 x0 x1 x2 = k0_pay2 x0 (wslab i x1) := by
  unfold sout0_A_0
  rw [View.read_writes_eq_canon _ _ _ (scover0_A_0 c i a2 h2 a3 h3 a4 h4 a5 h5 a6 h6 hc0 hc1 x0 x1 x2)]
  unfold kernelRun0_A
  dsimp only
  rw [View.canon_unit_zero hz]
  simp only [View.readAt_eq_ld, h2.read_unread, h3.read_unread, View.ld_unit_zero (S := S1024x2048) hz]

/-- THE SECOND POINT leaves, in the output block, the closing value of its activations' slab, its weights' slab, the
    accumulator `acc` the first point left, and the bias row. -/
theorem second_leaves (c : Dev nD) (i : grid0.Coords) (a2 : Memref sig .tc .vmem S1024x2048 .f32) (h2 : a2.IsWhole)
    (a3 : Memref sig .tc .vmem S64x4096 .f32) (h3 : a3.IsWhole) (a4 : Memref sig .tc .vmem S1x64 .f32) (h4 : a4.IsWhole)
    (a5 : Memref sig .tc .vmem S1024x64 .f32) (h5 : a5.IsWhole) (a6 : Memref sig .tc .vmem S1024x64 .f32) (h6 : a6.IsWhole)
    (hc0 : ¬cond0_0 i) (hc1 : cond0_1 i) (x0 : Vec F S1024x2048 .f32) (x1 : Vec F S64x4096 .f32) (x2 : Vec F S1x64 .f32)
    (acc : Vec F S1024x64 .f32) :
    out0_B_3 c i a2 h2 a3 h3 a4 h4 a5 h5 a6 h6 hc0 hc1 x0 x1 x2 acc = k0_pay3 x0 (wslab i x1) acc x2 := by
  unfold out0_B_3
  rw [View.read_writes_eq_canon _ _ _ (cover0_B_3 c i a2 h2 a3 h3 a4 h4 a5 h5 a6 h6 hc0 hc1 x0 x1 x2 acc)]
  unfold kernelRun0_B
  dsimp only
  rw [View.canon_unit_zero hz]
  simp only [View.readAt_eq_ld, h2.read_unread, h3.read_unread, h4.read_unread, h6.read_unread,
    View.ld_unit_zero (S := S1024x2048) hz, View.ld_unit_zero (S := S1024x64) hz, View.ld_unit_zero (S := S1x64) hz]

end Cert.KernelIdeal.Cases

end
-- ==== Proof.KernelReads.lean ====
/-
  Where each grid point's blocks sit in the arrays.
  The grid has 32 × 2 points, visited in row-major order: point `t` works on token block `t / 2` (1024 tokens) and
  feature half `t % 2` (2048 features). At point `t`
    • the activations' block is rows `1024 · (t / 2) …` and columns `2048 · (t % 2) …` of the activations;
    • the weights' block is the whole 64 × 4096 array, and the slab the body cuts from it is its columns
      `2048 · (t % 2) …`;
    • the bias block is the whole 1 × 64 row, which the program made before the kernel by reshaping the 64 biases;
    • the output block is rows `1024 · (t / 2) …` of the 32768 × 64 result (all 64 columns).
  The relations between the printed index maps and `t` are decided once over the 64 points.
-/
import proofs.«146715_g5909874999581_cont_9to1_m_558_23_alg».proof.Proof.Gen.KernelIdeal.Frame
import proofs.«146715_g5909874999581_cont_9to1_m_558_23_alg».proof.Proof.KernelCases
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Reads

open Cert.KernelIdeal Cert.KernelIdeal.Gen Cert.KernelIdeal.Cases
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps at point `t`, and the point's second coordinate, in terms of `t`: decided over the grid. -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = 0
    ∧ (grid0.coords t 1).val = t.val % 2 :=
  (by decide +kernel : ∀ t : Fin grid0.N, _)

/-- The activations' block at point `t`, entry `(p, k)`, is the activations at row `1024 · (t / 2) + p` and column
    `2048 · (t % 2) + k`. -/
theorem xblk_apply (c : Dev nD) (t : Fin cfg0.N) (p : Fin 1024) (k : Fin 2048) (r : Fin 32768) (k' : Fin 4096)
    (hr : r.val = 1024 * (t.val / 2) + p.val) (hk : k'.val = 2048 * (t.val % 2) + k.val) :
    (iblk m c 0 t : Vec F S1024x2048 .f32) (ix2 p k)
      = (m ((c : Thread nD τ).loc main_arg0) : S32768x4096.Idx → Elt F .f32) (ix2 r k') := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1024 + 1 * p.val = r.val; rw [e0, hr]; omega
  | ⟨1, _⟩ => show win0_0.index t 1 * 2048 + 1 * k.val = k'.val; rw [e1, hk]; omega

/-- The weights' block at any point is the whole weights array. -/
theorem wblk_eq (c : Dev nD) (t : Fin cfg0.N) :
    (iblk m c 1 t : Vec F S64x4096 .f32) = (m ((c : Thread nD τ).loc main_arg1) : S64x4096.Idx → Elt F .f32) := by
  obtain ⟨-, -, e2, e3, -⟩ := idx_facts t
  funext y
  unfold iblk
  rw [View.read_apply]
  show V m c main_arg1 _ = m (c.tc.loc main_arg1) _
  rw [V_main_arg1]
  refine congrArg _ (funext fun a => Fin.ext ?_)
  match a with
  | ⟨0, _⟩ => show win0_1.index t 0 * 64 + 1 * (y 0).val = (y 0).val; rw [e2]; omega
  | ⟨1, _⟩ => show win0_1.index t 1 * 4096 + 1 * (y 1).val = (y 1).val; rw [e3]; omega

/-- The slab a point with second coordinate `i₁` cuts from a 64 × 4096 array: entry `(e, k)` is the array at column
    `2048 · i₁ + k` of row `e`. -/
theorem wslab_apply (i : grid0.Coords) (W : Vec F S64x4096 .f32) (e : Fin 64) (k : Fin 2048) (k' : Fin 4096)
    (hk : k'.val = 2048 * (i 1).val + k.val) : wslab i W (ix2 e k) = W (ix2 e k') := by
  have ho := k0_off1_eq i
  show W ((Rect.unit (s := S64x4096) (k0_off1 i) S64x2048.size (k0_off1_inb i)).idx (ix2 e k)) = _
  refine congrArg W (funext fun a => Fin.ext ?_)
  match a with
  | ⟨0, _⟩ => show k0_off1 i 0 + 1 * e.val = e.val; rw [ho]; show 0 + 1 * e.val = e.val; omega
  | ⟨1, _⟩ => show k0_off1 i 1 + 1 * k.val = k'.val; rw [ho, hk]; show 2048 * (i 1).val + 1 * k.val = _; omega

/-- The bias block at any point, entry `(0, e)`, is the bias of expert `e`: the row the kernel is handed is the 64
    biases reshaped to 1 × 64. -/
theorem bblk_apply (c : Dev nD) (t : Fin cfg0.N) (e : Fin 64) :
    (iblk m c 2 t : Vec F S1x64 .f32) (ix2 (0 : Fin 1) e)
      = (m ((c : Thread nD τ).loc main_arg2) : S64.Idx → Elt F .f32) (ix1 e) := by
  obtain ⟨-, -, -, -, e4, e5, -⟩ := idx_facts t
  have hv : (V m c main_v0 : S1x64.Idx → Elt F .f32)
      = shapeCast S1x64 (m ((c : Thread nD τ).loc main_arg2) : S64.Idx → Elt F .f32) shapeCasts_S64_S1x64 := by
    dsimp only [Gen.V, Gen.hostOps0]; after_results; rfl
  unfold iblk
  rw [View.read_apply]
  show V m c main_v0 _ = _
  rw [hv]
  refine Eq.trans (congrArg _ (funext fun a => Fin.ext ?_)) (shapeCast_a_1a_apply _ shapeCasts_S64_S1x64 (0 : Fin 1) e)
  match a with
  | ⟨0, _⟩ => show win0_2.index t 0 * 1 + 1 * 0 = 0; rw [e4]
  | ⟨1, _⟩ => show win0_2.index t 1 * 64 + 1 * e.val = e.val; rw [e5]; omega

end Cert.KernelIdeal.Reads

end
-- ==== Proof.KernelBlock.lean ====
/-
  What the kernel's body computes on one block of 1024 tokens, read element by element over the extended reals.
  The body has three pure values:
    • the PARTIAL PRODUCT of a 1024 × 2048 slab of activations with a 64 × 2048 slab of weights, contracted over the
      slab's 2048 feature positions into a zero accumulator: at `(p, e)` the sum over `k` of `x[p, k] · w[e, k]`;
    • what the first of a block's two grid points stores in the carried accumulator: that partial product, unchanged
      by a cast to its own shape;
    • what the second point stores in the output block: the carried partial product plus this point's, plus the bias
      row broadcast down the 1024 tokens (the block's LOGITS), then along each row the maximum, the exponentials of the
      logits less it, their sum, and the quotient — the softmax of the row.
  The row maximum and the row sum are taken along the 64 experts, kept as a column and broadcast back along the row;
  read at `(p, e)` they are the fold of `max`, and the sum, over row `p`.
-/
import proofs.«146715_g5909874999581_cont_9to1_m_558_23_alg».proof.Proof.Gen.KernelIdeal.Skeleton
import proofs.«146715_g5909874999581_cont_9to1_m_558_23_alg».proof.Proof.GateLaw
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Cert.Gate
open Idealize.ShloMosaic Idealize.ShloMosaic.ValueIdx

/-! ## The partial product -/

/-- The left operand's row is the output's row; -/
theorem lhs_row (i : S1024x64.Idx) (k : dot_S1024x2048_S64x2048_S1024x64_1_1_0_0_n_n.contr.Idx) : (dot_S1024x2048_S64x2048_S1024x64_1_1_0_0_n_n.lhsIdx i k 0).val = (i 0).val := by
  unfold DotDims.lhsIdx
  rw [dif_neg (show ¬(0 : Fin S1024x2048.rank) ∈ dot_S1024x2048_S64x2048_S1024x64_1_1_0_0_n_n.lhsBatch by decide),
    dif_pos (show (0 : Fin S1024x2048.rank) ∈ dot_S1024x2048_S64x2048_S1024x64_1_1_0_0_n_n.lhsNonContracting by decide)]
  rfl

/-- the right operand's row (an expert) is the output's column. -/
theorem rhs_row (i : S1024x64.Idx) (k : dot_S1024x2048_S64x2048_S1024x64_1_1_0_0_n_n.contr.Idx) : (dot_S1024x2048_S64x2048_S1024x64_1_1_0_0_n_n.rhsIdx i k 0).val = (i 1).val := by
  unfold DotDims.rhsIdx
  rw [dif_neg (show ¬(0 : Fin S64x2048.rank) ∈ dot_S1024x2048_S64x2048_S1024x64_1_1_0_0_n_n.rhsBatch by decide),
    dif_pos (show (0 : Fin S64x2048.rank) ∈ dot_S1024x2048_S64x2048_S1024x64_1_1_0_0_n_n.rhsNonContracting by decide)]
  rfl

/-- The partial product at token `p` and expert `e`: the sum over the slab's 2048 positions of the products. -/
theorem partial_apply (x : Vec Ideal S1024x2048 .f32) (w : Vec Ideal S64x2048 .f32) (p : Fin 1024) (e : Fin 64) :
    k0_pay1 (F := Ideal) x w (ix2 p e) = ∑ k : Fin 2048, x (ix2 p k) * w (ix2 e k) := by
  unfold k0_pay1
  refine (Ideal.matmul_constant_zero_apply dot_S1024x2048_S64x2048_S1024x64_1_1_0_0_n_n none x w (ix2 p e)).trans ?_
  rw [← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 p e) ((contrEquiv1 dot_S1024x2048_S64x2048_S1024x64_1_1_0_0_n_n 2048 rfl rfl).symm k) = ix2 p k := funext fun a => Fin.ext (by
    match a with
    | ⟨0, _⟩ => exact lhs_row _ _
    | ⟨1, _⟩ => exact (dot_S1024x2048_S64x2048_S1024x64_1_1_0_0_n_n.lhsIdx_val_of_single rfl _ _).trans hk)
  have er : dot_S1024x2048_S64x2048_S1024x64_1_1_0_0_n_n.rhsIdx (ix2 p e) ((contrEquiv1 dot_S1024x2048_S64x2048_S1024x64_1_1_0_0_n_n 2048 rfl rfl).symm k) = ix2 e k := funext fun a => Fin.ext (by
    match a with
    | ⟨0, _⟩ => exact rhs_row _ _
    | ⟨1, _⟩ => exact (dot_S1024x2048_S64x2048_S1024x64_1_1_0_0_n_n.rhsIdx_val_of_single rfl _ _).trans hk)
  rw [el, er]

/-- What the first point leaves in the accumulator is the partial product (the cast is to the same shape). -/
theorem carried_eq (x : Vec Ideal S1024x2048 .f32) (w : Vec Ideal S64x2048 .f32) :
    k0_pay2 (F := Ideal) x w = k0_pay1 (F := Ideal) x w := by
  unfold k0_pay2
  exact shapeCast_self _ _

/-! ## A row statistic kept as a column and broadcast back -/

/-- A vector of 1024 row values, reshaped to a column and broadcast along 64 lanes, reads its row's value everywhere
    in the row. -/
theorem keepdims_apply (u : FVec Ideal S1024 .f32) (p : Fin 1024) (e : Fin 64) :
    broadcastTo S1024x64 (shapeCast S1024x1 u shapeCasts_S1024_S1024x1) broadcasts_S1024x1_S1024x64 (ix2 p e) = u (ix1 p) := by
  refine (broadcastTo_apply _ broadcasts_S1024x1_S1024x64 (ix2 p e) (ix2 p (0 : Fin 1)) fun a => ?_).trans ?_
  · match a with
    | ⟨0, _⟩ => rfl
    | ⟨1, _⟩ => rfl
  · refine shapeCast_apply u shapeCasts_S1024_S1024x1 (ix2 p (0 : Fin 1)) (ix1 p) ?_
    rw [Shape.rowMajor_val_one, Shape.rowMajor_val_two]
    show p.val = p.val * 1 + 0
    omega

/-- The block of row maxima: each row's maximum, in every lane of the row. -/
def rowMaxBlock (v : FVec Ideal S1024x64 .f32) : FVec Ideal S1024x64 .f32 :=
  broadcastTo S1024x64 (shapeCast S1024x1 (multiReduction .maximumf [1] S1024 v 0xFF800000#32 reduces_S1024x64_S1024 (.inl rfl) rfl)
    shapeCasts_S1024_S1024x1) broadcasts_S1024x1_S1024x64

/-- The block of row sums: each row's sum, in every lane of the row. -/
def rowSumBlock (v : FVec Ideal S1024x64 .f32) : FVec Ideal S1024x64 .f32 :=
  broadcastTo S1024x64 (shapeCast S1024x1 (multiReduction .add [1] S1024 v 0x00000000#32 reduces_S1024x64_S1024 (.inl rfl) rfl)
    shapeCasts_S1024_S1024x1) broadcasts_S1024x1_S1024x64

/-- Row `p` of a block as the reduction indexes it. -/
theorem row_eq (v : FVec Ideal S1024x64 .f32) (p : Fin 1024) :
    (v ∘ reduces_S1024x64_S1024.lift (ix1 p)) = fun e : Fin 64 => v (ix2 p e) :=
  funext fun k => congrArg v (funext fun a => Fin.ext (by
    match a with
    | ⟨0, _⟩ => rfl
    | ⟨1, _⟩ => rfl))

theorem rowMaxBlock_apply (v : FVec Ideal S1024x64 .f32) (p : Fin 1024) (e : Fin 64) :
    rowMaxBlock v (ix2 p e) = rowMax fun e' => v (ix2 p e') := by
  unfold rowMaxBlock
  refine (keepdims_apply _ p e).trans ?_
  refine (Ideal.multiReduction_maximumf_single v 0xFF800000#32 reduces_S1024x64_S1024 (.inl rfl) rfl (ix1 p)).trans ?_
  rw [row_eq]
  rfl

theorem rowSumBlock_apply (v : FVec Ideal S1024x64 .f32) (p : Fin 1024) (e : Fin 64) :
    rowSumBlock v (ix2 p e) = ∑ e' : Fin 64, v (ix2 p e') := by
  unfold rowSumBlock
  refine (keepdims_apply _ p e).trans ?_
  refine (Ideal.multiReduction_add_single v 0x00000000#32 reduces_S1024x64_S1024 (.inl rfl) rfl (ix1 p)).trans ?_
  exact Finset.sum_congr rfl fun k _ => congrFun (row_eq v p) k

/-! ## The softmax of a block of logits, row by row -/

/-- The body's closing stage on a block of logits: less the row maximum, exponentiated, over the row sum. -/
def rowSoftmax (v : FVec Ideal S1024x64 .f32) : FVec Ideal S1024x64 .f32 :=
  divf (exp (subf v (rowMaxBlock v))) (rowSumBlock (exp (subf v (rowMaxBlock v))))

/-- At `(p, e)` it is the softmax of row `p` at `e`. -/
theorem rowSoftmax_apply (v : FVec Ideal S1024x64 .f32) (p : Fin 1024) (e : Fin 64) :
    rowSoftmax v (ix2 p e) = softmaxRow (fun e' => v (ix2 p e')) e := by
  have hexp : ∀ e' : Fin 64, exp (subf v (rowMaxBlock v)) (ix2 p e')
      = Ideal.exp (v (ix2 p e') - rowMax fun e'' => v (ix2 p e'')) := fun e' => by
    show Ideal.exp (v (ix2 p e') - rowMaxBlock v (ix2 p e')) = _
    rw [rowMaxBlock_apply]
  show Ideal.div (exp (subf v (rowMaxBlock v)) (ix2 p e)) (rowSumBlock (exp (subf v (rowMaxBlock v))) (ix2 p e)) = _
  rw [rowSumBlock_apply, hexp e]
  unfold softmaxRow
  exact congrArg _ (Finset.sum_congr rfl fun e' _ => hexp e')

/-! ## The second point's stored value -/

/-- The block's logits as the second point forms them: the carried accumulator plus this point's partial product, plus
    the bias row broadcast down the tokens. -/
def logitsBlock (x : Vec Ideal S1024x2048 .f32) (w : Vec Ideal S64x2048 .f32) (acc : Vec Ideal S1024x64 .f32)
    (bias : Vec Ideal S1x64 .f32) : FVec Ideal S1024x64 .f32 :=
  addf (addf acc (k0_pay1 (F := Ideal) x w))
    (broadcastTo S1024x64 (shapeCast S1x64 bias shapeCasts_S1x64_S1x64) broadcasts_S1x64_S1024x64)

theorem logitsBlock_apply (x : Vec Ideal S1024x2048 .f32) (w : Vec Ideal S64x2048 .f32) (acc : Vec Ideal S1024x64 .f32)
    (bias : Vec Ideal S1x64 .f32) (p : Fin 1024) (e : Fin 64) :
    logitsBlock x w acc bias (ix2 p e)
      = (acc (ix2 p e) + ∑ k : Fin 2048, x (ix2 p k) * w (ix2 e k)) + bias (ix2 (0 : Fin 1) e) := by
  show (acc (ix2 p e) + k0_pay1 (F := Ideal) x w (ix2 p e))
    + broadcastTo S1024x64 (shapeCast S1x64 bias shapeCasts_S1x64_S1x64) broadcasts_S1x64_S1024x64 (ix2 p e) = _
  rw [partial_apply, shapeCast_self, broadcastTo_1b_ab_apply]

/-- The second point's stored value is the row softmax of those logits (the body's text, regrouped). -/
theorem epilogue_eq (x : Vec Ideal S1024x2048 .f32) (w : Vec Ideal S64x2048 .f32) (acc : Vec Ideal S1024x64 .f32)
    (bias : Vec Ideal S1x64 .f32) : k0_pay3 (F := Ideal) x w acc bias = rowSoftmax (logitsBlock x w acc bias) := rfl

/-- So at token `p` and expert `e` of the block it is the softmax of the token's 64 logits at `e`. -/
theorem epilogue_apply (x : Vec Ideal S1024x2048 .f32) (w : Vec Ideal S64x2048 .f32) (acc : Vec Ideal S1024x64 .f32)
    (bias : Vec Ideal S1x64 .f32) (p : Fin 1024) (e : Fin 64) :
    k0_pay3 (F := Ideal) x w acc bias (ix2 p e)
      = softmaxRow (fun e' => (acc (ix2 p e') + ∑ k : Fin 2048, x (ix2 p k) * w (ix2 e' k)) + bias (ix2 (0 : Fin 1) e')) e := by
  rw [epilogue_eq, rowSoftmax_apply]
  exact softmaxRow_congr (fun e' => logitsBlock_apply x w acc bias p e') e

/-! ## A block's two visits together -/

/-- The output block a token block's second visit stores, over the accumulator its first visit left: when the first
    visit's slabs are the first 2048 features of row `r` of the activations `X` and of every row of the weights `W`, the
    second visit's the last 2048, and the bias row is `b`, the entry at token `p` and expert `e` is the softmax of row
    `r`'s full logits at `e` — the two partial products add up to the contraction over all 4096 features. -/
theorem block_gate (X : (⟨2, ![32768, 4096]⟩ : Shape).Idx → EReal) (W : (⟨2, ![64, 4096]⟩ : Shape).Idx → EReal)
    (b : (⟨1, ![64]⟩ : Shape).Idx → EReal) (xa xb : Vec Ideal S1024x2048 .f32) (wa wb : Vec Ideal S64x2048 .f32)
    (bias : Vec Ideal S1x64 .f32) (p : Fin 1024) (e : Fin 64) (r : Fin 32768)
    (hxa : ∀ k : Fin 2048, xa (ix2 p k) = X (ix2 r ⟨k.val, by have := k.isLt; omega⟩))
    (hxb : ∀ k : Fin 2048, xb (ix2 p k) = X (ix2 r ⟨2048 + k.val, by have := k.isLt; omega⟩))
    (hwa : ∀ (e' : Fin 64) (k : Fin 2048), wa (ix2 e' k) = W (ix2 e' ⟨k.val, by have := k.isLt; omega⟩))
    (hwb : ∀ (e' : Fin 64) (k : Fin 2048), wb (ix2 e' k) = W (ix2 e' ⟨2048 + k.val, by have := k.isLt; omega⟩))
    (hb : ∀ e' : Fin 64, bias (ix2 (0 : Fin 1) e') = b (ix1 e')) :
    k0_pay3 (F := Ideal) xb wb (k0_pay2 (F := Ideal) xa wa) bias (ix2 p e) = softmaxRow (logit X W b r) e := by
  rw [epilogue_apply, carried_eq]
  refine softmaxRow_congr (fun e' => ?_) e
  unfold logit
  rw [partial_apply, sum_halves, hb e']
  simp only [hxa, hxb, hwa, hwb]

end Cert.KernelIdeal.Block

end
-- ==== Proof.KernelValue.lean ====
/-
  The kernel's result array, as one function of its arguments: the gating function of `GateLaw`.
  A block of 1024 tokens is finished at its second grid point (an odd point `t`), which alone writes the output block
  back. What it writes is the row softmax of (the partial product the point before left in the accumulator — over the
  first 2048 features — plus this point's partial product — over the last 2048 — plus the bias): by the law that a sum
  over the 4096 features is the sum of its two halves, the softmax of the tokens' full logits. The odd points' blocks
  tile the 32768 × 64 result (token block `t / 2`, all 64 experts), so the array ends holding the gating function
  everywhere.
-/
import proofs.«146715_g5909874999581_cont_9to1_m_558_23_alg».proof.Proof.Gen.KernelIdeal.Value
import proofs.«146715_g5909874999581_cont_9to1_m_558_23_alg».proof.Proof.KernelCases
import proofs.«146715_g5909874999581_cont_9to1_m_558_23_alg».proof.Proof.KernelReads
import proofs.«146715_g5909874999581_cont_9to1_m_558_23_alg».proof.Proof.KernelBlock
import proofs.«146715_g5909874999581_cont_9to1_m_558_23_alg».proof.Proof.GateLaw
import Idealize.ShloMosaic.Lib.Pipeline.Value
import Idealize.ShloMosaic.Lib.ValueIdx
import Idealize.ShloMosaic.Lib.Tactic

noncomputable section

open scoped BigOperators

namespace Cert.KernelIdeal.Whole

open Cert.KernelIdeal Cert.KernelIdeal.Gen Cert.KernelIdeal.Cases Cert.KernelIdeal.Reads Cert.KernelIdeal.Block Cert.Gate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the two points of a block leave -/

/-- After an even point `t` (a block's first) the carried accumulator holds the partial product of the point's
    activations' slab with its weights' slab. -/
theorem carried (c : Dev nD) (t : Fin cfg0.N) (h0 : t.val % 2 = 0) :
    (outsAt0 m c t.val t.isLt).2
      = k0_pay2 (F := Ideal) (iblk m c 0 t) (wslab (grid0.coords t) (iblk m c 1 t)) := by
  have h1 : ¬t.val % 2 = 1 := by omega
  rw [outsAt0_A m c t h0 h1]
  dsimp only
  exact first_leaves c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)

/-- The point before `t`. -/
abbrev before (t : Fin cfg0.N) : Fin cfg0.N := ⟨t.val - 1, Nat.lt_of_le_of_lt (Nat.sub_le _ _) t.isLt⟩

/-- After an odd point `t` (a block's second) the output block holds the closing value of the point's slabs, of the
    partial product the point before left, and of the bias row. -/
theorem written (c : Dev nD) (t : Fin cfg0.N) (h0 : ¬t.val % 2 = 0) (h1 : t.val % 2 = 1) :
    (outsAt0 m c t.val t.isLt).1
      = k0_pay3 (F := Ideal) (iblk m c 0 t) (wslab (grid0.coords t) (iblk m c 1 t))
          (k0_pay2 (F := Ideal) (iblk m c 0 (before t)) (wslab (grid0.coords (before t)) (iblk m c 1 (before t))))
          (iblk m c 2 t) := by
  have hb : (before t).val % 2 = 0 := by show (t.val - 1) % 2 = 0; omega
  rw [outsAt0_B m c t h0 h1]
  dsimp only
  refine (second_leaves c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2).trans ?_
  rw [carried m c (before t) hb]

/-! ## The write-back of a block, and the whole array -/

/-- The gating function of the three argument arrays as launched. -/
abbrev result (c : Dev nD) : Buf (Elt Ideal) ((c : Thread nD τ).loc main_v1) :=
  gate (m ((c : Thread nD τ).loc main_arg0) : S32768x4096.Idx → Elt Ideal .f32)
    (m ((c : Thread nD τ).loc main_arg1) : S64x4096.Idx → Elt Ideal .f32)
    (m ((c : Thread nD τ).loc main_arg2) : S64.Idx → Elt Ideal .f32)

/-- The weights' slab at point `s`, entry `(e, k)`, is the weights at row `e` and column `2048 · (s % 2) + k`. -/
theorem wslab_at (c : Dev nD) (s : Fin cfg0.N) (e : Fin 64) (k : Fin 2048) (k' : Fin 4096)
    (hk : k'.val = 2048 * (s.val % 2) + k.val) :
    wslab (grid0.coords s) (iblk m c 1 s) (ix2 e k)
      = (m ((c : Thread nD τ).loc main_arg1) : S64x4096.Idx → Elt Ideal .f32) (ix2 e k') := by
  obtain ⟨-, -, -, -, -, -, -, -, e8⟩ := idx_facts s
  exact (wslab_apply (grid0.coords s) (iblk m c 1 s) e k k' (by rw [e8]; exact hk)).trans
    (congrFun (wblk_eq m c s) (ix2 e k'))

/-- WHAT AN ODD POINT WRITES BACK is its block of the gating function. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have hN : t.val < 64 := lt_of_lt_of_eq t.isLt (show cfg0.N = 64 from N_0)
  obtain ⟨-, -, -, -, -, -, e6, e7, -⟩ := idx_facts t
  rw [Value.flushed3 m c t, written m c t h0 h1]
  funext y
  have hy0 : (y 0).val < 1024 := Nat.lt_of_lt_of_le (y 0).isLt (win0_3.xsize_le (grid0.coords t) 0)
  have hy1 : (y 1).val < 64 := Nat.lt_of_lt_of_le (y 1).isLt (win0_3.xsize_le (grid0.coords t) 1)
  have hr : 1024 * (t.val / 2) + (y 0).val < 32768 := by omega
  have hemb : ((cfg0.win 3).blk t).view.emb y
      = ix2 (⟨1024 * (t.val / 2) + (y 0).val, hr⟩ : Fin 32768) (⟨(y 1).val, hy1⟩ : Fin 64) := by
    funext a; apply Fin.ext
    match a with
    | ⟨0, _⟩ => show win0_3.index t 0 * 1024 + 1 * (y 0).val = 1024 * (t.val / 2) + (y 0).val; rw [e6]; omega
    | ⟨1, _⟩ => show win0_3.index t 1 * 64 + 1 * (y 1).val = (y 1).val; rw [e7]; omega
  have hx : win0_3.xinj (grid0.coords t) y = ix2 (⟨(y 0).val, hy0⟩ : Fin 1024) (⟨(y 1).val, hy1⟩ : Fin 64) := by
    funext a; apply Fin.ext
    match a with
    | ⟨0, _⟩ => rfl
    | ⟨1, _⟩ => rfl
  rw [View.read_apply]
  show k0_pay3 (F := Ideal) _ _ _ _ (win0_3.xinj (grid0.coords t) y) = result m c (((cfg0.win 3).blk t).view.emb y)
  rw [hx, hemb]
  exact block_gate _ _ _ (iblk m c 0 (before t)) (iblk m c 0 t)
    (wslab (grid0.coords (before t)) (iblk m c 1 (before t))) (wslab (grid0.coords t) (iblk m c 1 t)) (iblk m c 2 t)
    ⟨(y 0).val, hy0⟩ ⟨(y 1).val, hy1⟩ ⟨1024 * (t.val / 2) + (y 0).val, hr⟩
    (fun k => xblk_apply m c (before t) ⟨(y 0).val, hy0⟩ k _ _
      (by show 1024 * (t.val / 2) + (y 0).val = 1024 * ((t.val - 1) / 2) + (y 0).val; omega) (by show k.val = 2048 * ((t.val - 1) % 2) + k.val; omega))
    (fun k => xblk_apply m c t ⟨(y 0).val, hy0⟩ k _ _ rfl (by show 2048 + k.val = 2048 * (t.val % 2) + k.val; omega))
    (fun e' k => wslab_at m c (before t) e' k _ (by show k.val = 2048 * ((t.val - 1) % 2) + k.val; omega))
    (fun e' k => wslab_at m c t e' k _ (by show 2048 + k.val = 2048 * (t.val % 2) + k.val; omega))
    (fun e' => bblk_apply m c t e')

/-- An index of the result is in point `t`'s block iff its row is in token block `index t 0` (and its column anywhere). -/
theorem mem_blk (t : Fin cfg0.N) (i : S32768x64.Idx) :
    i ∈ ((cfg0.win 3).blk t).view.set
      ↔ ∀ a : Fin 2, win0_3.index t a * S1024x64.size a ≤ (i a).val ∧ (i a).val < win0_3.index t a * S1024x64.size a + S1024x64.size a := by
  show i ∈ ((View.whole main_v1).slice (win0_3.rect t)).set ↔ _
  rw [View.set_slice_whole, Rect.mem_set_unit]
  exact Iff.rfl

/-- Every entry of the result is in the block some odd point writes back: row `r` in that of point `2 · (r / 1024) + 1`. -/
theorem cover (i : S32768x64.Idx) :
    ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 64 := N_0
  obtain ⟨t, ht⟩ : ∃ t : Fin cfg0.N, t.val = 2 * ((i 0).val / 1024) + 1 := ⟨⟨_, by rw [hN]; omega⟩, rfl⟩
  obtain ⟨-, -, -, -, -, -, e6, e7, -⟩ := idx_facts t
  refine ⟨t, (flush0_3 t).mpr (by omega), ?_⟩
  rw [mem_blk]
  intro a
  match a with
  | ⟨0, _⟩ => show win0_3.index t 0 * 1024 ≤ (i 0).val ∧ (i 0).val < win0_3.index t 0 * 1024 + 1024; rw [e6]; omega
  | ⟨1, _⟩ => show win0_3.index t 1 * 64 ≤ (i 1).val ∧ (i 1).val < win0_3.index t 1 * 64 + 64; rw [e7]; omega

/-- THE ARRAY after the run: the gating function of the arguments. -/
theorem final (c : Dev nD) : (dats m 0 c).arrAt 3 cfg0.N = result m c :=
  (dats m 0 c).arrAt_eq_of_cover 3 (result m c) (flushed_eq m c) cover

/-- The kernel's run, read: the result array at the gating function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The gating network — softmax over 64 experts of `x · Wᵀ + b` for 32768 tokens of 4096 features — computed by a kernel
  that visits each block of 1024 tokens twice (once per half of the features, carrying the first half's partial product
  to the second visit, where bias, row maximum, exponentials, row sum and quotient follow) against the plain
  whole-array computation. Over the extended reals the two are one function: a token's logit is a sum over the 4096
  features, which is the sum over the first 2048 plus the sum over the last 2048 (addition is commutative and
  associative there, infinities included, so no finiteness of the inputs is used), and everything after the logits is
  the same row-wise expression on both sides — the reference's extra maximum with `-∞` and its sum's zero start change
  nothing.

  The pieces: `GateLaw` states the function and the laws; `RefValue` reads the reference's stages as that function;
  `KernelBlock` reads the kernel body's three pure values at an index; `KernelCases` says what each of a block's two
  visits leaves; `KernelReads` places each visit's blocks in the arrays; `KernelValue` assembles the result array.
  Each program's run (termination, no fault, arguments unchanged) is the generated one; the idealization rewrote
  nothing, so that conjunct is trivial.
-/
import proofs.«146715_g5909874999581_cont_9to1_m_558_23_alg».proof.Defs
import proofs.«146715_g5909874999581_cont_9to1_m_558_23_alg».proof.Proof.Gen.Kernel
import proofs.«146715_g5909874999581_cont_9to1_m_558_23_alg».proof.Proof.Gen.Kernel.Skeleton
import proofs.«146715_g5909874999581_cont_9to1_m_558_23_alg».proof.Proof.Gen.Kernel.Launch
import proofs.«146715_g5909874999581_cont_9to1_m_558_23_alg».proof.Proof.Gen.Kernel.Points
import proofs.«146715_g5909874999581_cont_9to1_m_558_23_alg».proof.Proof.Gen.Kernel.Frame
import proofs.«146715_g5909874999581_cont_9to1_m_558_23_alg».proof.Proof.Gen.KernelIdeal
import proofs.«146715_g5909874999581_cont_9to1_m_558_23_alg».proof.Proof.Gen.KernelIdeal.Skeleton
import proofs.«146715_g5909874999581_cont_9to1_m_558_23_alg».proof.Proof.Gen.KernelIdeal.Launch
import proofs.«146715_g5909874999581_cont_9to1_m_558_23_alg».proof.Proof.Gen.KernelIdeal.Points
import proofs.«146715_g5909874999581_cont_9to1_m_558_23_alg».proof.Proof.Gen.KernelIdeal.Frame
import proofs.«146715_g5909874999581_cont_9to1_m_558_23_alg».proof.Proof.Gen.KernelIdeal.Value
import proofs.«146715_g5909874999581_cont_9to1_m_558_23_alg».proof.Proof.Gen.ReferenceIdeal
import proofs.«146715_g5909874999581_cont_9to1_m_558_23_alg».proof.Proof.Gen.ReferenceIdeal.Run
import proofs.«146715_g5909874999581_cont_9to1_m_558_23_alg».proof.Proof.Gen.ReferenceIdeal.Read
import proofs.«146715_g5909874999581_cont_9to1_m_558_23_alg».proof.Proof.Gen.Pre_finite_inputs
import proofs.«146715_g5909874999581_cont_9to1_m_558_23_alg».proof.Proof.RefValue
import proofs.«146715_g5909874999581_cont_9to1_m_558_23_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of whole-array operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments, the kernel's result array ends at the gating function of its
    arguments and the reference's at the same function of its own: equal, element by element. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
